-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000x128 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S128x256 : Shape := ⟨2, ![128, 256]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩

abbrev nBuf : Space → Nat
  | .hbm => 25
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S50000x128, .f32⟩
  | .hbm, ⟨13, _⟩ => ⟨S1600000x1, .i32⟩
  | .hbm, ⟨14, _⟩ => ⟨S50000x128, .f32⟩
  | .hbm, ⟨15, _⟩ => ⟨S128x256, .f32⟩
  | .hbm, ⟨16, _⟩ => ⟨S128x256, .bf16⟩
  | .hbm, ⟨17, _⟩ => ⟨S128x256, .f32⟩
  | .hbm, ⟨18, _⟩ => ⟨S128x256, .bf16⟩
  | .hbm, ⟨19, _⟩ => ⟨S256x128, .bf16⟩
  | .hbm, ⟨20, _⟩ => ⟨S1x256, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000x128_S1600000x1_S1600000x128_1_0_0_1_wf : ScatterDims.WF S50000x128 S1600000x1 S1600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x256 : Shape := ⟨2, ![50000, 256]⟩
abbrev S1x256 : Shape := ⟨2, ![1, 256]⟩
abbrev S1x128 : Shape := ⟨2, ![1, 128]⟩
abbrev S50000 : Shape := ⟨1, ![50000]⟩
abbrev S50000x1 : Shape := ⟨2, ![50000, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S50000x128, .f32⟩
  | .hbm, ⟨13, _⟩ => ⟨S1600000x1, .i32⟩
  | .hbm, ⟨14, _⟩ => ⟨S50000x128, .f32⟩
  | .hbm, ⟨15, _⟩ => ⟨S50000x256, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S50000x256, .f32⟩
  | .hbm, ⟨27, _⟩ => ⟨S50000x256, .f32⟩
  | .hbm, ⟨28, _⟩ => ⟨S50000x256, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x128_S1600000x1_S1600000x128_1_0_0_1_wf : ScatterDims.WF S50000x128 S1600000x1 S1600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NodeUpdate.lean ====
/-
  One node's update, as mathematics on the extended reals.

  A node carries a feature row `xr` of width 128 and receives an aggregated row `ar` of the same width (the sum of
  the edge features arriving at it). The update joins the two rows into one of width 256, applies a dense layer
  256 → 256 with the activation `h · logistic h`, a second dense layer 256 → 128, normalizes the result along the row
  (subtract the row mean, scale by the reciprocal square root of the mean squared deviation plus a small offset, then
  an affine map per column), and adds the node's own row back.

  The only place where two spellings of this update differ is the first dense layer: the product of the joined row
  with the 256 × 256 weight matrix is the sum of the product of `xr` with the matrix's upper half and the product of
  `ar` with its lower half. That is a sum over 256 terms cut into its first and last 128, which holds in every
  commutative additive monoid, hence on the extended reals with no finiteness assumption (`sum_halves`).
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.NodeUpdate

open Idealize.ShloMosaic Idealize.ShloMosaic.ValueIdx

/-! ## The two float words that stay words -/

/-- The row width 128, as the f32 word both programs divide a row sum by. -/
def width : EReal := Ideal.ofBits .f32 0x43000000#32

/-- The offset added to the mean squared deviation, as the f32 word both programs add. -/
def offset : EReal := Ideal.ofBits .f32 0x3727C5AC#32

/-- The f32 word of one is the number one. -/
theorem one_word : Ideal.ofBits .f32 0x3F800000#32 = 1 := by
  simp [Ideal.ofBits, Ideal.ieee, -EReal.coe_mul]; norm_num

/-! ## The activation -/

/-- `h · logistic h`. -/
def silu (h : EReal) : EReal := h * Ideal.logistic h

/-- The logistic function spelt out as `1 / (1 + exp (-h))` with the word of one is the logistic function: that
    expression is its definition on the extended reals. -/
theorem silu_spelt (h : EReal) :
    h * Ideal.div (Ideal.ofBits .f32 0x3F800000#32) (Ideal.ofBits .f32 0x3F800000#32 + Ideal.exp (-h)) = silu h := by
  rw [one_word]; rfl

/-! ## Halving a sum of 256 terms -/

/-- Position `k` of the first half of 256 positions. -/
def lo (k : Fin 128) : Fin 256 := ⟨k.val, by omega⟩
/-- Position `k` of the second half of 256 positions. -/
def hi (k : Fin 128) : Fin 256 := ⟨128 + k.val, by omega⟩

@[simp] theorem lo_val (k : Fin 128) : (lo k).val = k.val := rfl
@[simp] theorem hi_val (k : Fin 128) : (hi k).val = 128 + k.val := rfl

/-- A sum over 256 positions is the sum over the first 128 plus the sum over the last 128. -/
theorem sum_halves {M : Type} [AddCommMonoid M] (f : Fin 256 → M) :
    ∑ k : Fin 256, f k = ∑ k : Fin 128, f (lo k) + ∑ k : Fin 128, f (hi k) :=
  Fin.sum_univ_add (a := 128) (b := 128) f

/-! ## The update of one row -/

/-- Hidden unit `g`: the node's row times column `g` of the upper half `Wa` of the first weight matrix plus the
    aggregated row times column `g` of its lower half `Wb`, plus the bias. -/
def hiddenUnit (xr ar : Fin 128 → EReal) (Wa Wb : Fin 128 → Fin 256 → EReal) (b1 : Fin 256 → EReal) (g : Fin 256) : EReal :=
  (∑ k : Fin 128, xr k * Wa k g + ∑ k : Fin 128, ar k * Wb k g) + b1 g

/-- The same hidden unit as ONE product of the joined row `cat` of width 256 with the whole matrix `W`: the sum over
    256 positions is cut into its halves, where the joined row is the node's row and the aggregated row. -/
theorem hiddenUnit_joined (xr ar : Fin 128 → EReal) (cat : Fin 256 → EReal) (W : Fin 256 → Fin 256 → EReal)
    (b1 : Fin 256 → EReal) (g : Fin 256) (hlo : ∀ k, cat (lo k) = xr k) (hhi : ∀ k, cat (hi k) = ar k) :
    (∑ k : Fin 256, cat k * W k g) + b1 g
      = hiddenUnit xr ar (fun k g => W (lo k) g) (fun k g => W (hi k) g) b1 g := by
  unfold hiddenUnit
  rw [sum_halves]
  simp only [hlo, hhi]

/-- Output unit `j` of the second dense layer from the activated hidden row `s`. -/
def outUnit (s : Fin 256 → EReal) (W2 : Fin 256 → Fin 128 → EReal) (b2 : Fin 128 → EReal) (j : Fin 128) : EReal :=
  (∑ g : Fin 256, s g * W2 g j) + b2 j

/-- The mean of a row of width 128: its sum divided by the width word. -/
def rowMean (v : Fin 128 → EReal) : EReal := Ideal.div (∑ j : Fin 128, v j) width

/-- A row's entry less the row mean. -/
def centred (v : Fin 128 → EReal) (j : Fin 128) : EReal := v j - rowMean v

/-- The mean squared deviation of a row. -/
def spread (v : Fin 128 → EReal) : EReal := rowMean fun j => centred v j * centred v j

/-- Row normalization with the affine map `γ`, `β`. -/
def normalized (v γ β : Fin 128 → EReal) (q : Fin 128) : EReal :=
  centred v q * Ideal.rsqrt (spread v + offset) * γ q + β q

/-- The second layer's row from the node's row and the aggregated row. -/
def secondRow (xr ar : Fin 128 → EReal) (Wa Wb : Fin 128 → Fin 256 → EReal) (b1 : Fin 256 → EReal)
    (W2 : Fin 256 → Fin 128 → EReal) (b2 : Fin 128 → EReal) : Fin 128 → EReal :=
  outUnit (fun g => silu (hiddenUnit xr ar Wa Wb b1 g)) W2 b2

/-- Entry `q` of the updated row. -/
def rowUpdate (xr ar : Fin 128 → EReal) (Wa Wb : Fin 128 → Fin 256 → EReal) (b1 : Fin 256 → EReal)
    (W2 : Fin 256 → Fin 128 → EReal) (b2 γ β : Fin 128 → EReal) (q : Fin 128) : EReal :=
  xr q + normalized (secondRow xr ar Wa Wb b1 W2 b2) γ β q

/-! ## The update of all nodes, over arrays -/

/-- Entry `(r, q)` of the updated node features, from the node features `x`, the aggregated edge features `agg` and
    the parameters as arrays. -/
def nodeOut (x agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 γ β : (⟨1, ![128]⟩ : Shape).Idx → EReal) (r : Fin 50000) (q : Fin 128) : EReal :=
  rowUpdate (fun k => x (ix2 r k)) (fun k => agg (ix2 r k)) (fun k g => W1 (ix2 (lo k) g)) (fun k g => W1 (ix2 (hi k) g))
    (fun g => b1 (ix1 g))
    (fun g j => W2 (ix2 g j)) (fun j => b2 (ix1 j)) (fun j => γ (ix1 j)) (fun j => β (ix1 j)) q

/-- The updated node features as one array. -/
def nodeArr (x agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 γ β : (⟨1, ![128]⟩ : Shape).Idx → EReal) : (⟨2, ![50000, 128]⟩ : Shape).Idx → EReal :=
  fun i => nodeOut x agg W1 b1 W2 b2 γ β (i 0) (i 1)

theorem nodeArr_apply (x agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 γ β : (⟨1, ![128]⟩ : Shape).Idx → EReal) (r : Fin 50000) (q : Fin 128) :
    nodeArr x agg W1 b1 W2 b2 γ β (ix2 r q) = nodeOut x agg W1 b1 W2 b2 γ β r q := rfl

end Cert.NodeUpdate

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.KernelRow.lean ====
/-
  The kernel body read at one entry of a block of 5000 nodes.

  The body loads a block `x0` of node rows, the matching block `x1` of aggregated rows, the two halves `x2`, `x3` of the
  first weight matrix, the bias row `x4`, the second weight matrix `x5` with its bias row `x6`, and the affine rows
  `x7`, `x8` of the normalization. Every step acts row by row: the two matrix products into zero accumulators are sums
  over the contracted axis, a bias kept as a [1, N] row is repeated down the rows, a lane sum over the second axis
  is the sum of a row's entries and comes back as a column [5000, 1] repeated along the row. So entry (p, q) of what the
  body stores is the row update of row p of `x0` and `x1`, at q.
-/
import proofs.«101648_j16415365006069_2_alg».proof.Proof.Gen.KernelIdeal.Skeleton
import proofs.«101648_j16415365006069_2_alg».proof.Proof.NodeUpdate
import proofs.«101648_j16415365006069_2_alg».proof.Proof.LibPlainMatmul
import proofs.«101648_j16415365006069_2_alg».proof.Proof.LibKeepdims
import proofs.«101648_j16415365006069_2_alg».proof.Proof.LibBlockLayout
import Idealize.ShloMosaic.Lib.Pipeline.Value
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.NodeUpdate

/-- The first two products contract 128 columns against 128 rows, no batch axis. -/
theorem dot1_plain : dot_S5000x128_S128x256_S5000x256_1_0_0_1_n_n = DotDims.plain 5000 128 256 := rfl
/-- The third contracts 256 columns against 256 rows. -/
theorem dot2_plain : dot_S5000x256_S256x128_S5000x128_1_0_0_1_n_n = DotDims.plain 5000 256 128 := rfl

variable (x0 x1 : Vec Ideal S5000x128 .f32) (x2 x3 : FVec Ideal S128x256 .bf16) (x4 : Vec Ideal S1x256 .f32)
  (x5 : FVec Ideal S256x128 .bf16) (x6 x7 x8 : Vec Ideal S1x128 .f32)

/-- The hidden layer before its activation, as the body computes it: two products into zero accumulators, added,
    plus the bias row repeated down the rows. -/
def hiddenBlk : FVec Ideal S5000x256 .f32 :=
  have v2 : FVec Ideal S5000x128 .f32 := shapeCast S5000x128 x1 shapeCasts_S5000x128_S5000x128
  have v3 : FVec Ideal S5000x128 .bf16 := truncf .bf16 x0 bitsLt_bf16_f32
  have v4 : FVec Ideal S5000x128 .bf16 := truncf .bf16 v2 bitsLt_bf16_f32
  have v6 : FVec Ideal S128x256 .bf16 := shapeCast S128x256 x2 shapeCasts_S128x256_S128x256
  have cst : FVec Ideal S5000x256 .f32 := constant S5000x256 .f32 0x00000000#32
  have v7 : FVec Ideal S5000x256 .f32 := matmul dot_S5000x128_S128x256_S5000x256_1_0_0_1_n_n none v3 v6 cst
  have v9 : FVec Ideal S128x256 .bf16 := shapeCast S128x256 x3 shapeCasts_S128x256_S128x256
  have cst_7 : FVec Ideal S5000x256 .f32 := constant S5000x256 .f32 0x00000000#32
  have v10 : FVec Ideal S5000x256 .f32 := matmul dot_S5000x128_S128x256_S5000x256_1_0_0_1_n_n none v4 v9 cst_7
  have v11 : FVec Ideal S5000x256 .f32 := addf v7 v10
  have v13 : FVec Ideal S1x256 .f32 := shapeCast S1x256 x4 shapeCasts_S1x256_S1x256
  have v14 : FVec Ideal S5000x256 .f32 := broadcastTo S5000x256 v13 broadcasts_S1x256_S5000x256
  addf v11 v14

/-- The second layer of the block: the activated hidden layer times the second matrix, plus its bias row. -/
def secondBlk : FVec Ideal S5000x128 .f32 :=
  have v15 : FVec Ideal S5000x256 .f32 := hiddenBlk x0 x1 x2 x3 x4
  have v16 : FVec Ideal S5000x256 .f32 := logistic v15
  have v17 : FVec Ideal S5000x256 .f32 := mulf v15 v16
  have v18 : FVec Ideal S5000x256 .bf16 := truncf .bf16 v17 bitsLt_bf16_f32
  have v20 : FVec Ideal S256x128 .bf16 := shapeCast S256x128 x5 shapeCasts_S256x128_S256x128
  have cst_12 : FVec Ideal S5000x128 .f32 := constant S5000x128 .f32 0x00000000#32
  have v21 : FVec Ideal S5000x128 .f32 := matmul dot_S5000x256_S256x128_S5000x128_1_0_0_1_n_n none v18 v20 cst_12
  have v23 : FVec Ideal S1x128 .f32 := shapeCast S1x128 x6 shapeCasts_S1x128_S1x128
  have v24 : FVec Ideal S5000x128 .f32 := broadcastTo S5000x128 v23 broadcasts_S1x128_S5000x128
  addf v21 v24

/-- The column of row means of a block: the lane sum over the second axis, as a column, over the width word. -/
def meanCol (v : FVec Ideal S5000x128 .f32) : FVec Ideal S5000x1 .f32 :=
  have v26 : FVec Ideal S5000 .f32 := multiReduction .add [1] S5000 v 0x00000000#32 reduces_S5000x128_S5000 (.inl rfl) rfl
  have v27 : FVec Ideal S5000x1 .f32 := shapeCast S5000x1 v26 shapeCasts_S5000_S5000x1
  have cst_16 : Ideal .f32 := Scalar.ofBits .f32 0x43000000#32
  have v28 : FVec Ideal S5000x1 .f32 := broadcast S5000x1 cst_16
  divf v27 v28

/-- A lane sum over the second axis from the zero word, at row r, is the sum of that row's entries (the accumulator
    fact typed as the printed program's proof of it is). -/
theorem laneSum_at (src : FVec Ideal S5000x128 .f32) (hφ : FKind.Formats .f32)
    (hacc : (0x00000000#32 : BitVec 32) = 0x00000000#32) (r : Fin 5000) :
    multiReduction .add [1] S5000 src 0x00000000#32 reduces_S5000x128_S5000 hφ hacc (ix1 r)
      = ∑ d : Fin 128, src (ix2 r d) :=
  Cert.LibKeepdims.multiReduction_add_rows src 0x00000000#32 reduces_S5000x128_S5000 hφ hacc r

/-- The body's centred second layer is the second layer less its row means repeated along the rows. -/
theorem pay2_eq : k0_pay2 x0 x1 x2 x3 x4 x5 x6
    = subf (secondBlk x0 x1 x2 x3 x4 x5 x6)
        (broadcastTo S5000x128 (meanCol (secondBlk x0 x1 x2 x3 x4 x5 x6)) broadcasts_S5000x1_S5000x128) := rfl

/-- The body's mean squared deviation is the column of row means of the squared centred layer. -/
theorem pay3_eq : k0_pay3 x0 x1 x2 x3 x4 x5 x6
    = meanCol (mulf (k0_pay2 x0 x1 x2 x3 x4 x5 x6) (k0_pay2 x0 x1 x2 x3 x4 x5 x6)) := rfl

/-- Entry (p, g) of the hidden layer is hidden unit g of row p. -/
theorem hiddenBlk_at (p : Fin 5000) (g : Fin 256) :
    hiddenBlk x0 x1 x2 x3 x4 (ix2 p g)
      = hiddenUnit (fun k => x0 (ix2 p k)) (fun k => x1 (ix2 p k)) (fun k g => x2 (ix2 k g)) (fun k g => x3 (ix2 k g))
          (fun g => x4 (ix2 (0 : Fin 1) g)) g := by
  unfold hiddenBlk hiddenUnit
  simp only [shapeCast_self, matmul]
  rw [addf_apply, addf_apply, dot1_plain, Cert.LibPlainMatmul.matmul_zero_apply, Cert.LibPlainMatmul.matmul_zero_apply,
    Cert.LibBlockLayout.rowBroadcast_at]
  rfl

/-- Entry (p, j) of the second layer is output unit j of row p's activated hidden row. -/
theorem secondBlk_at (p : Fin 5000) (j : Fin 128) :
    secondBlk x0 x1 x2 x3 x4 x5 x6 (ix2 p j)
      = secondRow (fun k => x0 (ix2 p k)) (fun k => x1 (ix2 p k)) (fun k g => x2 (ix2 k g)) (fun k g => x3 (ix2 k g))
          (fun g => x4 (ix2 (0 : Fin 1) g)) (fun g j => x5 (ix2 g j)) (fun j => x6 (ix2 (0 : Fin 1) j)) j := by
  unfold secondBlk secondRow outUnit
  simp only [shapeCast_self, matmul]
  rw [addf_apply, dot2_plain, Cert.LibPlainMatmul.matmul_zero_apply, Cert.LibBlockLayout.rowBroadcast_at]
  refine congrArg (· + x6 (ix2 (0 : Fin 1) j)) (Finset.sum_congr rfl fun g _ => ?_)
  rw [truncf_apply, mulf_apply, ← hiddenBlk_at]
  rfl

/-- Entry (p, 0) of the column of row means is the mean of row p. -/
theorem meanCol_at (v : FVec Ideal S5000x128 .f32) (p : Fin 5000) :
    meanCol v (ix2 p (0 : Fin 1)) = rowMean fun j => v (ix2 p j) := by
  unfold meanCol rowMean width
  dsimp only
  rw [divf_apply, Cert.LibKeepdims.shapeCast_a_a1_apply, laneSum_at]
  rfl

/-- Entry (p, j) of the centred second layer. -/
theorem pay2_at (p : Fin 5000) (j : Fin 128) :
    k0_pay2 x0 x1 x2 x3 x4 x5 x6 (ix2 p j)
      = centred (secondRow (fun k => x0 (ix2 p k)) (fun k => x1 (ix2 p k)) (fun k g => x2 (ix2 k g))
          (fun k g => x3 (ix2 k g)) (fun g => x4 (ix2 (0 : Fin 1) g)) (fun g j => x5 (ix2 g j))
          (fun j => x6 (ix2 (0 : Fin 1) j))) j := by
  rw [pay2_eq, subf_apply, Cert.LibKeepdims.broadcastTo_a1_ab_apply, meanCol_at, secondBlk_at]
  unfold centred
  exact congrArg (_ - rowMean ·) (funext fun j' => secondBlk_at x0 x1 x2 x3 x4 x5 x6 p j')

/-- Entry (p, 0) of the mean squared deviation. -/
theorem pay3_at (p : Fin 5000) :
    k0_pay3 x0 x1 x2 x3 x4 x5 x6 (ix2 p (0 : Fin 1))
      = spread (secondRow (fun k => x0 (ix2 p k)) (fun k => x1 (ix2 p k)) (fun k g => x2 (ix2 k g))
          (fun k g => x3 (ix2 k g)) (fun g => x4 (ix2 (0 : Fin 1) g)) (fun g j => x5 (ix2 g j))
          (fun j => x6 (ix2 (0 : Fin 1) j))) := by
  rw [pay3_eq, meanCol_at]
  unfold spread
  exact congrArg rowMean (funext fun j => by rw [mulf_apply, pay2_at])

/-- The stored value at (p, q) from the centred layer `d`, the deviation column `s` and the offset `e`: the node's own
    entry plus the centred entry scaled by the reciprocal square root of the row's deviation plus the offset, then
    the affine map of column q. -/
theorem pay1_at (d : FVec Ideal S5000x128 .f32) (s : FVec Ideal S5000x1 .f32) (e : Ideal .f32) (p : Fin 5000)
    (q : Fin 128) :
    k0_pay1 x0 d s e x7 x8 (ix2 p q)
      = x0 (ix2 p q) + (d (ix2 p q) * Ideal.rsqrt (s (ix2 p (0 : Fin 1)) + e) * x7 (ix2 (0 : Fin 1) q)
          + x8 (ix2 (0 : Fin 1) q)) := by
  unfold k0_pay1
  simp only [shapeCast_self]
  rw [addf_apply, addf_apply, mulf_apply, mulf_apply, Cert.LibKeepdims.broadcastTo_a1_ab_apply,
    Cert.LibBlockLayout.rowBroadcast_at, Cert.LibBlockLayout.rowBroadcast_at]
  rfl

/-- Entry (p, q) of what the body stores is the row update of row p, at q. -/
theorem stored_at (p : Fin 5000) (q : Fin 128) :
    k0_pay1 x0 (k0_pay2 x0 x1 x2 x3 x4 x5 x6) (k0_pay3 x0 x1 x2 x3 x4 x5 x6) (Scalar.ofBits .f32 0x3727C5AC#32) x7 x8
        (ix2 p q)
      = rowUpdate (fun k => x0 (ix2 p k)) (fun k => x1 (ix2 p k)) (fun k g => x2 (ix2 k g)) (fun k g => x3 (ix2 k g))
          (fun g => x4 (ix2 (0 : Fin 1) g)) (fun g j => x5 (ix2 g j)) (fun j => x6 (ix2 (0 : Fin 1) j))
          (fun j => x7 (ix2 (0 : Fin 1) j)) (fun j => x8 (ix2 (0 : Fin 1) j)) q := by
  rw [pay1_at, pay2_at, pay3_at]
  rfl

end Cert.KernelIdeal.RowValue

end
-- ==== Proof.Staged.lean ====
/-
  What the region finds in its windows' arrays.

  Before the region the host has written: the aggregated edge features (a scatter-add of the edge feature rows into
  a zero array, at the destination column of the edge list); the upper and the lower half of the first weight matrix,
  each a slice of rows converted to a narrower float format, which is the identity on the extended reals; the second
  weight matrix, converted likewise; and the four parameter vectors, each reshaped to a one-row matrix. Read at an
  entry each of these is the evident entry of an argument. The aggregated features are kept as one term that is never
  opened: the reference computes the same term.
-/
import proofs.«101648_j16415365006069_2_alg».proof.Proof.Gen.KernelIdeal.Frame
import proofs.«101648_j16415365006069_2_alg».proof.Proof.NodeUpdate
import Idealize.ShloMosaic.Lib.StableHlo.Run
import Idealize.ShloMosaic.Lib.Tactic
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Staged

open Cert.KernelIdeal Cert.KernelIdeal.Gen Idealize.ShloMosaic Idealize.ShloMosaic.TcCoe Idealize.ShloMosaic.Tactic
  Idealize.ShloMosaic.ValueIdx Idealize.SL.Sem Cert.NodeUpdate

variable (m : (ℓ : Loc nD τ sig) → Buf (Elt Ideal) ℓ)

/-- The aggregated edge features as the host computes them from the edge list `e` and the edge features `u`: row n is
    the sum of the rows of `u` whose destination (row 1 of `e`) is n, scattered into zeros. -/
def aggOf (e : (⟨S2x1600000, .i32⟩ : BufTy).Contents (Elt Ideal)) (u : (⟨S1600000x128, .f32⟩ : BufTy).Contents (Elt Ideal)) :
    (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0
      (shapeCast S1600000 (extractStridedSlice S1x1600000 ![1, 0] e slices_S2x1600000_S1x1600000_1_0)
        shapeCasts_S1x1600000_S1600000))
    u

/-- Window 1's array is the aggregated edge features of the arguments. -/
theorem agg_eq (c : Dev nD) :
    (V m c main_v4 : S50000x128.Idx → EReal)
      = aggOf (m ((c : Thread nD τ).loc main_arg1)) (m ((c : Thread nD τ).loc main_arg2)) := by
  dsimp only [V, hostOps0]
  after_results
  rfl

/-- Window 2's array at (k, g) is the first weight matrix at row k of its upper half. -/
theorem upper_at (c : Dev nD) (k : Fin 128) (g : Fin 256) :
    (V m c main_v6 : S128x256.Idx → EReal) (ix2 k g) = m ((c : Thread nD τ).loc main_arg3) (ix2 (lo k) g) := by
  have e : (V m c main_v6 : S128x256.Idx → EReal)
      = (truncf .bf16 (extractStridedSlice S128x256 ![0, 0] (m ((c : Thread nD τ).loc main_arg3) : FVec Ideal S256x256 .f32)
          slices_S256x256_S128x256_0_0 : FVec Ideal S128x256 .f32) bitsLt_bf16_f32 : FVec Ideal S128x256 .bf16) := by
    dsimp only [V, hostOps0]; after_results
  rw [e, truncf_apply]
  exact slice2_axis0_apply 0 _ slices_S256x256_S128x256_0_0 k g (lo k) (Nat.zero_add _).symm

/-- Window 3's array at (k, g) is the first weight matrix at row k of its lower half. -/
theorem lower_at (c : Dev nD) (k : Fin 128) (g : Fin 256) :
    (V m c main_v8 : S128x256.Idx → EReal) (ix2 k g) = m ((c : Thread nD τ).loc main_arg3) (ix2 (hi k) g) := by
  have e : (V m c main_v8 : S128x256.Idx → EReal)
      = (truncf .bf16 (extractStridedSlice S128x256 ![128, 0] (m ((c : Thread nD τ).loc main_arg3) : FVec Ideal S256x256 .f32)
          slices_S256x256_S128x256_128_0 : FVec Ideal S128x256 .f32) bitsLt_bf16_f32 : FVec Ideal S128x256 .bf16) := by
    dsimp only [V, hostOps0]; after_results
  rw [e, truncf_apply]
  exact slice2_axis0_apply 128 _ slices_S256x256_S128x256_128_0 k g (hi k) rfl

/-- Window 5's array is the second weight matrix. -/
theorem second_at (c : Dev nD) (i : S256x128.Idx) :
    (V m c main_v9 : S256x128.Idx → EReal) i = m ((c : Thread nD τ).loc main_arg5) i := by
  have e : (V m c main_v9 : S256x128.Idx → EReal)
      = (truncf .bf16 (m ((c : Thread nD τ).loc main_arg5) : FVec Ideal S256x128 .f32) bitsLt_bf16_f32 : FVec Ideal S256x128 .bf16) := by
    dsimp only [V, hostOps0]; after_results
  rw [e, truncf_apply]

/-- A vector of N entries reshaped to a one-row matrix reads, at (0, g), the vector at g. -/
theorem oneRow_at {α : Type} {N : ℕ} (x : (⟨1, ![N]⟩ : Shape).Idx → α) (h : (⟨1, ![N]⟩ : Shape).ShapeCasts ⟨2, ![1, N]⟩)
    (g : Fin N) : shapeCast ⟨2, ![1, N]⟩ x h (ix2 (0 : Fin 1) g) = x (ix1 g) :=
  shapeCast_apply x h _ _ (by
    rw [Shape.rowMajor_val_two, Shape.rowMajor_val_one]
    show g.val = 0 * N + g.val
    rw [Nat.zero_mul, Nat.zero_add])

/-- Window 4's array at (0, g) is the first bias at g. -/
theorem bias1_at (c : Dev nD) (g : Fin 256) :
    (V m c main_v10 : S1x256.Idx → EReal) (ix2 (0 : Fin 1) g) = m ((c : Thread nD τ).loc main_arg4) (ix1 g) := by
  have e : (V m c main_v10 : S1x256.Idx → EReal)
      = shapeCast S1x256 (m ((c : Thread nD τ).loc main_arg4)) shapeCasts_S256_S1x256 := by
    dsimp only [V, hostOps0]; after_results; rfl
  rw [e]; exact oneRow_at _ _ g

/-- Window 6's array at (0, j) is the second bias at j. -/
theorem bias2_at (c : Dev nD) (j : Fin 128) :
    (V m c main_v11 : S1x128.Idx → EReal) (ix2 (0 : Fin 1) j) = m ((c : Thread nD τ).loc main_arg6) (ix1 j) := by
  have e : (V m c main_v11 : S1x128.Idx → EReal)
      = shapeCast S1x128 (m ((c : Thread nD τ).loc main_arg6)) shapeCasts_S128_S1x128 := by
    dsimp only [V, hostOps0]; after_results; rfl
  rw [e]; exact oneRow_at _ _ j

/-- Window 7's array at (0, j) is the scale at j. -/
theorem scale_at (c : Dev nD) (j : Fin 128) :
    (V m c main_v12 : S1x128.Idx → EReal) (ix2 (0 : Fin 1) j) = m ((c : Thread nD τ).loc main_arg7) (ix1 j) := by
  have e : (V m c main_v12 : S1x128.Idx → EReal)
      = shapeCast S1x128 (m ((c : Thread nD τ).loc main_arg7)) shapeCasts_S128_S1x128 := by
    dsimp only [V, hostOps0]; after_results; rfl
  rw [e]; exact oneRow_at _ _ j

/-- Window 8's array at (0, j) is the shift at j. -/
theorem shift_at (c : Dev nD) (j : Fin 128) :
    (V m c main_v13 : S1x128.Idx → EReal) (ix2 (0 : Fin 1) j) = m ((c : Thread nD τ).loc main_arg8) (ix1 j) := by
  have e : (V m c main_v13 : S1x128.Idx → EReal)
      = shapeCast S1x128 (m ((c : Thread nD τ).loc main_arg8)) shapeCasts_S128_S1x128 := by
    dsimp only [V, hostOps0]; after_results; rfl
  rw [e]; exact oneRow_at _ _ j

end Cert.KernelIdeal.Staged

end
-- ==== Proof.KernelBlocks.lean ====
/-
  A window's block at a grid point, read at an entry, for any contents of the window's array.

  The grid has ten points. At point t the windows of the node features, of the aggregated edge features and of the
  result sit on rows 5000·t … 5000·t + 4999 of their arrays; the windows of the parameter arrays never move and show the
  whole array. So an entry of a block is the evident entry of the array, whatever the array holds.
-/
import proofs.«101648_j16415365006069_2_alg».proof.Proof.Gen.KernelIdeal.Frame
import proofs.«101648_j16415365006069_2_alg».proof.Proof.NodeUpdate
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.ShloMosaic.ValueIdx
  Idealize.SL.Sem Cert.NodeUpdate
open Idealize.ShloMosaic.Pipeline (Dat)

/-- The body's loads and its store start at the origin of their buffers. -/
theorem origin : (![0, 0] : Fin 2 → Nat) = fun _ => 0 := funext fun a => by fin_cases a <;> rfl

/-- The windows of the two feature arrays and of the result move down one block of rows per point. -/
theorem moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0 :=
  (by decide +kernel : ∀ t : Fin grid0.N, _)

/-- The windows of the parameter arrays stay on the one block that is the whole array. -/
theorem resident : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row p of the block at point t is row 5000·t + p of the array. -/
def row (t : Fin cfg0.N) (p : Fin 5000) : Fin 50000 :=
  ⟨t.val * 5000 + p.val, by have hN : cfg0.N = 10 := N_0; have := t.isLt; have := p.isLt; omega⟩

/-! ## Each window's block at a point, read at an entry -/

theorem nodes_read (A : S50000x128.Idx → EReal) (t : Fin cfg0.N) (p : Fin 5000) (k : Fin 128) :
    (((cfg0.win 0).blk t).view.read (Elt Ideal) A : S5000x128.Idx → EReal) (ix2 p k) = A (ix2 (row t p) k) := by
  obtain ⟨e0, e1, -⟩ := moving t
  have hi : ((cfg0.win 0).blk t).view.emb (ix2 p k) = ix2 (row t p) k := funext fun a => Fin.ext (by
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega)
  rw [View.read_apply]
  exact congrArg A hi

theorem gathered_read (A : S50000x128.Idx → EReal) (t : Fin cfg0.N) (p : Fin 5000) (k : Fin 128) :
    (((cfg0.win 1).blk t).view.read (Elt Ideal) A : S5000x128.Idx → EReal) (ix2 p k) = A (ix2 (row t p) k) := by
  obtain ⟨-, -, e0, e1, -⟩ := moving t
  have hi : ((cfg0.win 1).blk t).view.emb (ix2 p k) = ix2 (row t p) k := funext fun a => Fin.ext (by
    match a with
    | ⟨0, _⟩ => show win0_1.index t (0 : Fin 2) * 5000 + 1 * p.val = t.val * 5000 + p.val; rw [e0]; omega
    | ⟨1, _⟩ => show win0_1.index t (1 : Fin 2) * 128 + 1 * k.val = k.val; rw [e1]; omega)
  rw [View.read_apply]
  exact congrArg A hi

theorem upper_read (A : S128x256.Idx → EReal) (t : Fin cfg0.N) (k : Fin 128) (g : Fin 256) :
    (((cfg0.win 2).blk t).view.read (Elt Ideal) A : S128x256.Idx → EReal) (ix2 k g) = A (ix2 k g) := by
  obtain ⟨⟨e0, e1⟩, -⟩ := resident t
  have hi : ((cfg0.win 2).blk t).view.emb (ix2 k g) = ix2 k g := funext fun a => Fin.ext (by
    match a with
    | ⟨0, _⟩ => show win0_2.index t (0 : Fin 2) * 128 + 1 * k.val = k.val; rw [e0]; omega
    | ⟨1, _⟩ => show win0_2.index t (1 : Fin 2) * 256 + 1 * g.val = g.val; rw [e1]; omega)
  rw [View.read_apply]
  exact congrArg A hi

theorem lower_read (A : S128x256.Idx → EReal) (t : Fin cfg0.N) (k : Fin 128) (g : Fin 256) :
    (((cfg0.win 3).blk t).view.read (Elt Ideal) A : S128x256.Idx → EReal) (ix2 k g) = A (ix2 k g) := by
  obtain ⟨-, ⟨e0, e1⟩, -⟩ := resident t
  have hi : ((cfg0.win 3).blk t).view.emb (ix2 k g) = ix2 k g := funext fun a => Fin.ext (by
    match a with
    | ⟨0, _⟩ => show win0_3.index t (0 : Fin 2) * 128 + 1 * k.val = k.val; rw [e0]; omega
    | ⟨1, _⟩ => show win0_3.index t (1 : Fin 2) * 256 + 1 * g.val = g.val; rw [e1]; omega)
  rw [View.read_apply]
  exact congrArg A hi

theorem bias1_read (A : S1x256.Idx → EReal) (t : Fin cfg0.N) (g : Fin 256) :
    (((cfg0.win 4).blk t).view.read (Elt Ideal) A : S1x256.Idx → EReal) (ix2 (0 : Fin 1) g) = A (ix2 (0 : Fin 1) g) := by
  obtain ⟨-, -, ⟨e0, e1⟩, -⟩ := resident t
  have hi : ((cfg0.win 4).blk t).view.emb (ix2 (0 : Fin 1) g) = ix2 (0 : Fin 1) g := funext fun a => Fin.ext (by
    match a with
    | ⟨0, _⟩ => show win0_4.index t (0 : Fin 2) * 1 + 1 * 0 = 0; rw [e0]
    | ⟨1, _⟩ => show win0_4.index t (1 : Fin 2) * 256 + 1 * g.val = g.val; rw [e1]; omega)
  rw [View.read_apply]
  exact congrArg A hi

theorem second_read (A : S256x128.Idx → EReal) (t : Fin cfg0.N) (g : Fin 256) (j : Fin 128) :
    (((cfg0.win 5).blk t).view.read (Elt Ideal) A : S256x128.Idx → EReal) (ix2 g j) = A (ix2 g j) := by
  obtain ⟨-, -, -, ⟨e0, e1⟩, -⟩ := resident t
  have hi : ((cfg0.win 5).blk t).view.emb (ix2 g j) = ix2 g j := funext fun a => Fin.ext (by
    match a with
    | ⟨0, _⟩ => show win0_5.index t (0 : Fin 2) * 256 + 1 * g.val = g.val; rw [e0]; omega
    | ⟨1, _⟩ => show win0_5.index t (1 : Fin 2) * 128 + 1 * j.val = j.val; rw [e1]; omega)
  rw [View.read_apply]
  exact congrArg A hi

theorem bias2_read (A : S1x128.Idx → EReal) (t : Fin cfg0.N) (j : Fin 128) :
    (((cfg0.win 6).blk t).view.read (Elt Ideal) A : S1x128.Idx → EReal) (ix2 (0 : Fin 1) j) = A (ix2 (0 : Fin 1) j) := by
  obtain ⟨-, -, -, -, ⟨e0, e1⟩, -⟩ := resident t
  have hi : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [e0]
    | ⟨1, _⟩ => show win0_6.index t (1 : Fin 2) * 128 + 1 * j.val = j.val; rw [e1]; omega)
  rw [View.read_apply]
  exact congrArg A hi

theorem scale_read (A : S1x128.Idx → EReal) (t : Fin cfg0.N) (j : Fin 128) :
    (((cfg0.win 7).blk t).view.read (Elt Ideal) A : S1x128.Idx → EReal) (ix2 (0 : Fin 1) j) = A (ix2 (0 : Fin 1) j) := by
  obtain ⟨-, -, -, -, -, ⟨e0, e1⟩, -⟩ := resident t
  have hi : ((cfg0.win 7).blk t).view.emb (ix2 (0 : Fin 1) j) = ix2 (0 : Fin 1) j := funext fun a => Fin.ext (by
    match a with
    | ⟨0, _⟩ => show win0_7.index t (0 : Fin 2) * 1 + 1 * 0 = 0; rw [e0]
    | ⟨1, _⟩ => show win0_7.index t (1 : Fin 2) * 128 + 1 * j.val = j.val; rw [e1]; omega)
  rw [View.read_apply]
  exact congrArg A hi

theorem shift_read (A : S1x128.Idx → EReal) (t : Fin cfg0.N) (j : Fin 128) :
    (((cfg0.win 8).blk t).view.read (Elt Ideal) A : S1x128.Idx → EReal) (ix2 (0 : Fin 1) j) = A (ix2 (0 : Fin 1) j) := by
  obtain ⟨-, -, -, -, -, -, e0, e1⟩ := resident t
  have hi : ((cfg0.win 8).blk t).view.emb (ix2 (0 : Fin 1) j) = ix2 (0 : Fin 1) j := funext fun a => Fin.ext (by
    match a with
    | ⟨0, _⟩ => show win0_8.index t (0 : Fin 2) * 1 + 1 * 0 = 0; rw [e0]
    | ⟨1, _⟩ => show win0_8.index t (1 : Fin 2) * 128 + 1 * j.val = j.val; rw [e1]; omega)
  rw [View.read_apply]
  exact congrArg A hi

theorem result_read (A : S50000x128.Idx → EReal) (t : Fin cfg0.N) (p : Fin 5000) (q : Fin 128) :
    (((cfg0.win 9).blk t).view.read (Elt Ideal) A : S5000x128.Idx → EReal) (ix2 p q) = A (ix2 (row t p) q) := by
  obtain ⟨-, -, -, -, e0, e1⟩ := moving t
  have hi : ((cfg0.win 9).blk t).view.emb (ix2 p q) = ix2 (row t p) q := funext fun a => Fin.ext (by
    match a with
    | ⟨0, _⟩ => show win0_9.index t (0 : Fin 2) * 5000 + 1 * p.val = t.val * 5000 + p.val; rw [e0]; omega
    | ⟨1, _⟩ => show win0_9.index t (1 : Fin 2) * 128 + 1 * q.val = q.val; rw [e1]; omega)
  rw [View.read_apply]
  exact congrArg A hi

end Cert.KernelIdeal.ArrayValue

end
-- ==== Proof.KernelArray.lean ====
/-
  From blocks to the array: what the kernel's run leaves in the result.

  The grid has ten points. At point t the body sees rows 5000·t … 5000·t + 4999 of the node features and of the
  aggregated edge features, and the whole of every parameter array (their windows never move); it writes back rows
  5000·t … 5000·t + 4999 of the result. A row of the result depends on the same row of the two feature arrays only, so
  the block written at t is the block at t of ONE array, the update of all nodes, and the ten blocks cover it.
-/
import proofs.«101648_j16415365006069_2_alg».proof.Proof.Gen.KernelIdeal.Value
import proofs.«101648_j16415365006069_2_alg».proof.Proof.KernelRow
import proofs.«101648_j16415365006069_2_alg».proof.Proof.Staged
import proofs.«101648_j16415365006069_2_alg».proof.Proof.KernelBlocks
import proofs.«101648_j16415365006069_2_alg».proof.Proof.NodeUpdate
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.ShloMosaic.ValueIdx
  Idealize.SL.Sem Cert.NodeUpdate
open Idealize.ShloMosaic.Pipeline (Dat)

variable (m : (ℓ : Loc nD τ sig) → Buf (Elt Ideal) ℓ) (ρ : Dev nD → PrngReg)

/-! ## What each window's array holds, the array named by its window as the frame names it -/

theorem nodes_arr (c : Dev nD) :
    (V m c (Pipeline.arrRef spec0 (0 : Fin cfg0.W)) : S50000x128.Idx → EReal) = m ((c : Thread nD τ).loc main_arg0) :=
  (rfl : (V m c (Pipeline.arrRef spec0 (0 : Fin cfg0.W)) : S50000x128.Idx → EReal) = (V m c main_arg0 : S50000x128.Idx → EReal)).trans (V_main_arg0 m c)

theorem gathered_arr (c : Dev nD) :
    (V m c (Pipeline.arrRef spec0 (1 : Fin cfg0.W)) : S50000x128.Idx → EReal) = Staged.aggOf (m ((c : Thread nD τ).loc main_arg1)) (m ((c : Thread nD τ).loc main_arg2)) :=
  (rfl : (V m c (Pipeline.arrRef spec0 (1 : Fin cfg0.W)) : S50000x128.Idx → EReal) = (V m c main_v4 : S50000x128.Idx → EReal)).trans (Staged.agg_eq m c)

theorem upper_arr (c : Dev nD) :
    (V m c (Pipeline.arrRef spec0 (2 : Fin cfg0.W)) : S128x256.Idx → EReal) = (V m c main_v6 : S128x256.Idx → EReal) := rfl

theorem lower_arr (c : Dev nD) :
    (V m c (Pipeline.arrRef spec0 (3 : Fin cfg0.W)) : S128x256.Idx → EReal) = (V m c main_v8 : S128x256.Idx → EReal) := rfl

theorem bias1_arr (c : Dev nD) :
    (V m c (Pipeline.arrRef spec0 (4 : Fin cfg0.W)) : S1x256.Idx → EReal) = (V m c main_v10 : S1x256.Idx → EReal) := rfl

theorem second_arr (c : Dev nD) :
    (V m c (Pipeline.arrRef spec0 (5 : Fin cfg0.W)) : S256x128.Idx → EReal) = (V m c main_v9 : S256x128.Idx → EReal) := rfl

theorem bias2_arr (c : Dev nD) :
    (V m c (Pipeline.arrRef spec0 (6 : Fin cfg0.W)) : S1x128.Idx → EReal) = (V m c main_v11 : S1x128.Idx → EReal) := rfl

theorem scale_arr (c : Dev nD) :
    (V m c (Pipeline.arrRef spec0 (7 : Fin cfg0.W)) : S1x128.Idx → EReal) = (V m c main_v12 : S1x128.Idx → EReal) := rfl

theorem shift_arr (c : Dev nD) :
    (V m c (Pipeline.arrRef spec0 (8 : Fin cfg0.W)) : S1x128.Idx → EReal) = (V m c main_v13 : S1x128.Idx → EReal) := rfl

/-! ## Each window's block at a point, read at an entry of an argument -/

theorem nodes_at (c : Dev nD) (t : Fin cfg0.N) (p : Fin 5000) (k : Fin 128) :
    (iblk m c 0 t : S5000x128.Idx → EReal) (ix2 p k) = m ((c : Thread nD τ).loc main_arg0) (ix2 (row t p) k) := by
  unfold iblk
  exact (nodes_read (V m c (Pipeline.arrRef spec0 (0 : Fin cfg0.W)) : S50000x128.Idx → EReal) t p k).trans (congrFun (nodes_arr m c) _)

theorem gathered_at (c : Dev nD) (t : Fin cfg0.N) (p : Fin 5000) (k : Fin 128) :
    (iblk m c 1 t : S5000x128.Idx → EReal) (ix2 p k) = Staged.aggOf (m ((c : Thread nD τ).loc main_arg1)) (m ((c : Thread nD τ).loc main_arg2)) (ix2 (row t p) k) := by
  unfold iblk
  exact (gathered_read (V m c (Pipeline.arrRef spec0 (1 : Fin cfg0.W)) : S50000x128.Idx → EReal) t p k).trans (congrFun (gathered_arr m c) _)

theorem upper_blk (c : Dev nD) (t : Fin cfg0.N) (k : Fin 128) (g : Fin 256) :
    (iblk m c 2 t : S128x256.Idx → EReal) (ix2 k g) = m ((c : Thread nD τ).loc main_arg3) (ix2 (lo k) g) := by
  unfold iblk
  exact (upper_read (V m c (Pipeline.arrRef spec0 (2 : Fin cfg0.W)) : S128x256.Idx → EReal) t k g).trans ((congrFun (upper_arr m c) _).trans (Staged.upper_at m c k g))

theorem lower_blk (c : Dev nD) (t : Fin cfg0.N) (k : Fin 128) (g : Fin 256) :
    (iblk m c 3 t : S128x256.Idx → EReal) (ix2 k g) = m ((c : Thread nD τ).loc main_arg3) (ix2 (hi k) g) := by
  unfold iblk
  exact (lower_read (V m c (Pipeline.arrRef spec0 (3 : Fin cfg0.W)) : S128x256.Idx → EReal) t k g).trans ((congrFun (lower_arr m c) _).trans (Staged.lower_at m c k g))

theorem bias1_blk (c : Dev nD) (t : Fin cfg0.N) (g : Fin 256) :
    (iblk m c 4 t : S1x256.Idx → EReal) (ix2 (0 : Fin 1) g) = m ((c : Thread nD τ).loc main_arg4) (ix1 g) := by
  unfold iblk
  exact (bias1_read (V m c (Pipeline.arrRef spec0 (4 : Fin cfg0.W)) : S1x256.Idx → EReal) t g).trans ((congrFun (bias1_arr m c) _).trans (Staged.bias1_at m c g))

theorem second_blk (c : Dev nD) (t : Fin cfg0.N) (g : Fin 256) (j : Fin 128) :
    (iblk m c 5 t : S256x128.Idx → EReal) (ix2 g j) = m ((c : Thread nD τ).loc main_arg5) (ix2 g j) := by
  unfold iblk
  exact (second_read (V m c (Pipeline.arrRef spec0 (5 : Fin cfg0.W)) : S256x128.Idx → EReal) t g j).trans ((congrFun (second_arr m c) _).trans (Staged.second_at m c _))

theorem bias2_blk (c : Dev nD) (t : Fin cfg0.N) (j : Fin 128) :
    (iblk m c 6 t : S1x128.Idx → EReal) (ix2 (0 : Fin 1) j) = m ((c : Thread nD τ).loc main_arg6) (ix1 j) := by
  unfold iblk
  exact (bias2_read (V m c (Pipeline.arrRef spec0 (6 : Fin cfg0.W)) : S1x128.Idx → EReal) t j).trans ((congrFun (bias2_arr m c) _).trans (Staged.bias2_at m c j))

theorem scale_blk (c : Dev nD) (t : Fin cfg0.N) (j : Fin 128) :
    (iblk m c 7 t : S1x128.Idx → EReal) (ix2 (0 : Fin 1) j) = m ((c : Thread nD τ).loc main_arg7) (ix1 j) := by
  unfold iblk
  exact (scale_read (V m c (Pipeline.arrRef spec0 (7 : Fin cfg0.W)) : S1x128.Idx → EReal) t j).trans ((congrFun (scale_arr m c) _).trans (Staged.scale_at m c j))

theorem shift_blk (c : Dev nD) (t : Fin cfg0.N) (j : Fin 128) :
    (iblk m c 8 t : S1x128.Idx → EReal) (ix2 (0 : Fin 1) j) = m ((c : Thread nD τ).loc main_arg8) (ix1 j) := by
  unfold iblk
  exact (shift_read (V m c (Pipeline.arrRef spec0 (8 : Fin cfg0.W)) : S1x128.Idx → EReal) t j).trans ((congrFun (shift_arr m c) _).trans (Staged.shift_at m c j))

/-! ## The result array -/

/-- The row update depends on its arguments through their values only. -/
theorem rowUpdate_congr {xr xr' ar ar' : Fin 128 → EReal} {Wa Wa' Wb Wb' : Fin 128 → Fin 256 → EReal}
    {b1 b1' : Fin 256 → EReal} {W2 W2' : Fin 256 → Fin 128 → EReal} {b2 b2' γ γ' β β' : Fin 128 → EReal}
    (h0 : ∀ k, xr k = xr' k) (h1 : ∀ k, ar k = ar' k) (h2 : ∀ k g, Wa k g = Wa' k g) (h3 : ∀ k g, Wb k g = Wb' k g)
    (h4 : ∀ g, b1 g = b1' g) (h5 : ∀ g j, W2 g j = W2' g j) (h6 : ∀ j, b2 j = b2' j) (h7 : ∀ j, γ j = γ' j)
    (h8 : ∀ j, β j = β' j) (q : Fin 128) :
    rowUpdate xr ar Wa Wb b1 W2 b2 γ β q = rowUpdate xr' ar' Wa' Wb' b1' W2' b2' γ' β' q := by
  obtain rfl : xr = xr' := funext h0
  obtain rfl : ar = ar' := funext h1
  obtain rfl : Wa = Wa' := funext fun k => funext (h2 k)
  obtain rfl : Wb = Wb' := funext fun k => funext (h3 k)
  obtain rfl : b1 = b1' := funext h4
  obtain rfl : W2 = W2' := funext fun g => funext (h5 g)
  obtain rfl : b2 = b2' := funext h6
  obtain rfl : γ = γ' := funext h7
  obtain rfl : β = β' := funext h8
  rfl

/-- What the result array ends holding: the update of all nodes from the argument arrays, the aggregated edge
    features being the host's scatter-add of the edge features. -/
def result (c : Dev nD) : S50000x128.Idx → EReal :=
  nodeArr (m ((c : Thread nD τ).loc main_arg0))
    (Staged.aggOf (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point t writes back is block t of `result`. -/
theorem flushed_eq (c : Dev nD) (t : Fin cfg0.N) :
    (dats m 0 c).flushed 9 t = ((cfg0.win 9).blk t).view.read (Elt Ideal) (result m c) := by
  have hcut : ∀ v : Vec Ideal S5000x128 .f32, (cfg0.win 9).cut (grid0.coords t) v = v := fun _ => rfl
  rw [Value.flushed9]
  unfold out0_9
  rw [View.canon_unit_zero origin]
  simp only [View.ld_unit_zero (S := S5000x128) origin, View.ld_unit_zero (S := S128x256) origin,
    View.ld_unit_zero (S := S1x256) origin, View.ld_unit_zero (S := S256x128) origin,
    View.ld_unit_zero (S := S1x128) origin]
  refine (hcut _).trans ?_
  refine funext fun (j : S5000x128.Idx) => ?_
  obtain ⟨p, q, rfl⟩ : ∃ (p : Fin 5000) (q : Fin 128), j = ix2 p q := ⟨j 0, j 1, eq_ix2 j⟩
  refine (RowValue.stored_at (iblk m c 0 t) (iblk m c 1 t) (iblk m c 2 t) (iblk m c 3 t) (iblk m c 4 t) (iblk m c 5 t)
    (iblk m c 6 t) (iblk m c 7 t) (iblk m c 8 t) p q).trans ?_
  refine Eq.trans ?_ (result_read (result m c) t p q).symm
  show _ = nodeOut _ _ _ _ _ _ _ _ (row t p) q
  unfold nodeOut
  exact rowUpdate_congr (nodes_at m c t p) (gathered_at m c t p) (upper_blk m c t) (lower_blk m c t) (bias1_blk m c t)
    (second_blk m c t) (bias2_blk m c t) (scale_blk m c t) (shift_blk m c t) q

/-- Every row of the result lies in the block of the point its number divided by 5000 names. -/
theorem covered (c : Dev nD) (i : S50000x128.Idx) :
    ∃ t : Fin cfg0.N, (cfg0.win 9).flush t = true ∧ i ∈ ((cfg0.win 9).blk t).view.set := by
  have hN : cfg0.N = 10 := N_0
  have hi0 : (i 0).val < 50000 := (i 0).isLt
  have hi1 : (i 1).val < 128 := (i 1).isLt
  have ht : (i 0).val / 5000 < cfg0.N := by omega
  obtain ⟨-, -, -, -, e0, e1⟩ := moving ⟨(i 0).val / 5000, ht⟩
  refine ⟨⟨(i 0).val / 5000, ht⟩, flush0_9 _, ?_⟩
  show i ∈ ((View.whole main_v14).slice (win0_9.rect ⟨(i 0).val / 5000, ht⟩)).set
  rw [View.set_slice_whole, Rect.mem_set_unit]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e1]; omega

/-- So the result array ends holding `result`. -/
theorem final (c : Dev nD) : (dats m 0 c).arrAt 9 cfg0.N = result m c :=
  (dats m 0 c).arrAt_eq_of_cover 9 (result m c) (fun t _ => flushed_eq m c t) (covered c)

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.RefValue.lean ====
/-
  The reference read at one entry.

  The reference joins the node features and the aggregated edge features along the columns, multiplies the joined
  [50000, 256] array by the whole first weight matrix, adds the bias, applies `h · (1 / (1 + exp (-h)))`, multiplies by the
  second matrix, adds its bias, and normalizes each row. Read at entry (r, q), operation by operation, this is the row
  update of row r at q: the product with the joined row is cut into its two halves (`hiddenUnit_joined`), the spelt-out
  logistic is the logistic function, and a host sum from the zero word is the plain sum. The aggregated edge features
  stay the one term `val_main_v4`, never opened.
-/
import proofs.«101648_j16415365006069_2_alg».proof.Proof.Gen.ReferenceIdeal.Read
import proofs.«101648_j16415365006069_2_alg».proof.Proof.NodeUpdate
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.NodeUpdate

variable (x0 : (⟨S50000x128, .f32⟩ : BufTy).Contents (Elt Ideal)) (x1 : (⟨S2x1600000, .i32⟩ : BufTy).Contents (Elt Ideal))
  (x2 : (⟨S1600000x128, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 x7 x8 : (⟨S128, .f32⟩ : BufTy).Contents (Elt Ideal))

/-- The joined row at a position of its first half is the node's row. -/
theorem joined_lo (r : Fin 50000) (k : Fin 128) :
    val_main_v5 (F := Ideal) x0 x1 x2 (ix2 r (lo k)) = x0 (ix2 r k) := by
  unfold val_main_v5
  exact concatenate_pair_apply_left (1 : Fin 2) x0 (val_main_v4 (F := Ideal) x1 x2)
    _ (ix2 r (lo k)) rfl (ix2 r k)
    (fun b => by match b with | ⟨0, _⟩ => rfl | ⟨1, _⟩ => rfl)

/-- The joined row at a position of its second half is the aggregated row. -/
theorem joined_hi (r : Fin 50000) (k : Fin 128) :
    val_main_v5 (F := Ideal) x0 x1 x2 (ix2 r (hi k)) = val_main_v4 (F := Ideal) x1 x2 (ix2 r k) := by
  unfold val_main_v5
  exact concatenate_pair_apply_right (1 : Fin 2) x0 (val_main_v4 (F := Ideal) x1 x2)
    _ (ix2 r (hi k)) rfl rfl (ix2 r k)
    (fun b hb => by
      match b, hb with
      | ⟨0, _⟩, _ => rfl
      | ⟨1, _⟩, hb => exact absurd rfl hb)
    (by show k.val + 128 = 128 + k.val; omega)

/-- Entry (r, g) of the hidden layer before its activation. -/
theorem hidden_at (r : Fin 50000) (g : Fin 256) :
    val_main_v9 (F := Ideal) x0 x1 x2 x3 x4 (ix2 r g)
      = hiddenUnit (fun k => x0 (ix2 r k)) (fun k => val_main_v4 (F := Ideal) x1 x2 (ix2 r k)) (fun k g => x3 (ix2 (lo k) g))
          (fun k g => x3 (ix2 (hi k) g)) (fun g => x4 (ix1 g)) g := by
  have el : ∀ k : Fin 256, lidx_main_v6 (ix2 r g) k = ix2 r k := fun k => funext fun a => Fin.ext (by
    match a with | ⟨0, _⟩ => rfl | ⟨1, _⟩ => rfl)
  have er : ∀ k : Fin 256, ridx_main_v6 (ix2 r g) k = ix2 k g := fun k => funext fun a => Fin.ext (by
    match a with | ⟨0, _⟩ => rfl | ⟨1, _⟩ => rfl)
  have eb : idx_main_v7 (idx_main_v8 (ix2 r g)) = ix1 g := funext fun a => Fin.ext (by
    match a with | ⟨0, _⟩ => rfl)
  rw [val_main_v9_apply, val_main_v6_apply, val_main_v8_apply, val_main_v7_apply, eb]
  simp only [el, er]
  exact hiddenUnit_joined (fun k => x0 (ix2 r k)) (fun k => val_main_v4 (F := Ideal) x1 x2 (ix2 r k))
    (fun k => val_main_v5 (F := Ideal) x0 x1 x2 (ix2 r k)) (fun k g => x3 (ix2 k g)) (fun g => x4 (ix1 g)) g
    (joined_lo x0 x1 x2 r) (joined_hi x0 x1 x2 r)

/-- Entry (r, g) of the activated hidden layer. -/
theorem activated_at (r : Fin 50000) (g : Fin 256) :
    val_main_v10 (F := Ideal) x0 x1 x2 x3 x4 (ix2 r g)
      = silu (hiddenUnit (fun k => x0 (ix2 r k)) (fun k => val_main_v4 (F := Ideal) x1 x2 (ix2 r k)) (fun k g => x3 (ix2 (lo k) g))
          (fun k g => x3 (ix2 (hi k) g)) (fun g => x4 (ix1 g)) g) := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply, hidden_at]
  exact silu_spelt _

/-- Entry (r, j) of the second layer. -/
theorem second_at (r : Fin 50000) (j : Fin 128) :
    val_main_v14 (F := Ideal) x0 x1 x2 x3 x4 x5 x6 (ix2 r j)
      = secondRow (fun k => x0 (ix2 r k)) (fun k => val_main_v4 (F := Ideal) x1 x2 (ix2 r k)) (fun k g => x3 (ix2 (lo k) g))
          (fun k g => x3 (ix2 (hi k) g)) (fun g => x4 (ix1 g)) (fun g j => x5 (ix2 g j)) (fun j => x6 (ix1 j)) j := by
  have el : ∀ k : Fin 256, lidx_main_v11 (ix2 r j) k = ix2 r k := fun k => funext fun a => Fin.ext (by
    match a with | ⟨0, _⟩ => rfl | ⟨1, _⟩ => rfl)
  have er : ∀ k : Fin 256, ridx_main_v11 (ix2 r j) k = ix2 k j := fun k => funext fun a => Fin.ext (by
    match a with | ⟨0, _⟩ => rfl | ⟨1, _⟩ => rfl)
  have eb : idx_main_v12 (idx_main_v13 (ix2 r j)) = ix1 j := funext fun a => Fin.ext (by
    match a with | ⟨0, _⟩ => rfl)
  rw [val_main_v14_apply, val_main_v11_apply, val_main_v13_apply, val_main_v12_apply, eb]
  simp only [el, er, activated_at]
  rfl

/-- Entry (r, 0) of the column of row means. -/
theorem mean_at (r : Fin 50000) :
    val_main_v18 (F := Ideal) x0 x1 x2 x3 x4 x5 x6 (ix2 r (0 : Fin 1))
      = rowMean (secondRow (fun k => x0 (ix2 r k)) (fun k => val_main_v4 (F := Ideal) x1 x2 (ix2 r k)) (fun k g => x3 (ix2 (lo k) g))
          (fun k g => x3 (ix2 (hi k) g)) (fun g => x4 (ix1 g)) (fun g j => x5 (ix2 g j)) (fun j => x6 (ix1 j))) := by
  have ei : ∀ k : Fin 128, idx_main_v15 (idx_main_v16 (ix2 r (0 : Fin 1))) k = ix2 r k := fun k => funext fun a =>
    Fin.ext (by match a with | ⟨0, _⟩ => rfl | ⟨1, _⟩ => rfl)
  rw [val_main_v18_apply, val_main_v16_apply, val_main_v15_apply, val_main_v17_apply, val_main_cst_1_apply,
    val_main_cst_0_apply]
  simp only [ei, second_at]
  unfold rowMean width
  show Ideal.div (Ideal.ofBits .f32 0x00000000#32 + _) _ = _
  rw [Ideal.ofBits_zero_f32, zero_add]
  rfl

/-- Entry (r, j) of the centred second layer (the reference computes it twice; this is the first). -/
theorem centred_at (r : Fin 50000) (j : Fin 128) :
    val_main_v20 (F := Ideal) x0 x1 x2 x3 x4 x5 x6 (ix2 r j)
      = centred (secondRow (fun k => x0 (ix2 r k)) (fun k => val_main_v4 (F := Ideal) x1 x2 (ix2 r k)) (fun k g => x3 (ix2 (lo k) g))
          (fun k g => x3 (ix2 (hi k) g)) (fun g => x4 (ix1 g)) (fun g j => x5 (ix2 g j)) (fun j => x6 (ix1 j))) j := by
  have ei : idx_main_v19 (ix2 r j) = ix2 r (0 : Fin 1) := funext fun a => Fin.ext (by
    match a with | ⟨0, _⟩ => rfl | ⟨1, _⟩ => rfl)
  rw [val_main_v20_apply, val_main_v19_apply, ei, mean_at, second_at]
  rfl

/-- The second computation of the centred layer is the same. -/
theorem centred_at' (r : Fin 50000) (j : Fin 128) :
    val_main_v27 (F := Ideal) x0 x1 x2 x3 x4 x5 x6 (ix2 r j)
      = centred (secondRow (fun k => x0 (ix2 r k)) (fun k => val_main_v4 (F := Ideal) x1 x2 (ix2 r k)) (fun k g => x3 (ix2 (lo k) g))
          (fun k g => x3 (ix2 (hi k) g)) (fun g => x4 (ix1 g)) (fun g j => x5 (ix2 g j)) (fun j => x6 (ix1 j))) j := by
  have ei : idx_main_v26 (ix2 r j) = ix2 r (0 : Fin 1) := funext fun a => Fin.ext (by
    match a with | ⟨0, _⟩ => rfl | ⟨1, _⟩ => rfl)
  rw [val_main_v27_apply, val_main_v26_apply, ei, mean_at, second_at]
  rfl

/-- Entry (r, 0) of the column of mean squared deviations. -/
theorem spread_at (r : Fin 50000) :
    val_main_v25 (F := Ideal) x0 x1 x2 x3 x4 x5 x6 (ix2 r (0 : Fin 1))
      = spread (secondRow (fun k => x0 (ix2 r k)) (fun k => val_main_v4 (F := Ideal) x1 x2 (ix2 r k)) (fun k g => x3 (ix2 (lo k) g))
          (fun k g => x3 (ix2 (hi k) g)) (fun g => x4 (ix1 g)) (fun g j => x5 (ix2 g j)) (fun j => x6 (ix1 j))) := by
  have ei : ∀ k : Fin 128, idx_main_v22 (idx_main_v23 (ix2 r (0 : Fin 1))) k = ix2 r k := fun k => funext fun a =>
    Fin.ext (by match a with | ⟨0, _⟩ => rfl | ⟨1, _⟩ => rfl)
  rw [val_main_v25_apply, val_main_v23_apply, val_main_v22_apply, val_main_v24_apply, val_main_cst_3_apply,
    val_main_cst_2_apply]
  simp only [ei, val_main_v21_apply, centred_at]
  unfold spread rowMean width
  show Ideal.div (Ideal.ofBits .f32 0x00000000#32 + _) _ = _
  rw [Ideal.ofBits_zero_f32, zero_add]
  rfl

/-- Entry (r, q) of the reference's result is the update of node r at q. -/
theorem result_at (r : Fin 50000) (q : Fin 128) :
    val_main_v39 (F := Ideal) x0 x1 x2 x3 x4 x5 x6 x7 x8 (ix2 r q)
      = nodeOut x0 (val_main_v4 (F := Ideal) x1 x2) x3 x4 x5 x6 x7 x8 r q := by
  have e31 : idx_main_v31 (ix2 r q) = ix2 r (0 : Fin 1) := funext fun a => Fin.ext (by
    match a with | ⟨0, _⟩ => rfl | ⟨1, _⟩ => rfl)
  have e34 : idx_main_v33 (idx_main_v34 (ix2 r q)) = ix1 q := funext fun a => Fin.ext (by
    match a with | ⟨0, _⟩ => rfl)
  have e37 : idx_main_v36 (idx_main_v37 (ix2 r q)) = ix1 q := funext fun a => Fin.ext (by
    match a with | ⟨0, _⟩ => rfl)
  rw [val_main_v39_apply, val_main_v38_apply, val_main_v35_apply, val_main_v37_apply, val_main_v36_apply, e37,
    val_main_v32_apply, val_main_v34_apply, val_main_v33_apply, e34, centred_at', val_main_v31_apply, e31,
    val_main_v30_apply, val_main_v29_apply, val_main_v28_apply, val_main_cst_4_apply, spread_at]
  rfl

/-- The reference's result as one array: the update of all nodes. -/
theorem result_eq :
    val_main_v39 (F := Ideal) x0 x1 x2 x3 x4 x5 x6 x7 x8 = nodeArr x0 (val_main_v4 (F := Ideal) x1 x2) x3 x4 x5 x6 x7 x8 := by
  funext i
  obtain ⟨r, q, rfl⟩ : ∃ (r : Fin 50000) (q : Fin 128), i = ix2 r q := ⟨i 0, i 1, eq_ix2 i⟩
  exact result_at x0 x1 x2 x3 x4 x5 x6 x7 x8 r q

end Cert.ReferenceIdeal.RefValue

end
-- ==== Proof.AggSame.lean ====
/-
  The aggregated edge features are one term in both programs.

  Kernel and reference compute the aggregated edge features on the host by the same operations in the same order: row 1
  of the edge list, reshaped to a vector and then to a column of indices, and a scatter-add of the edge feature rows at
  those indices into a zero array. The two printed terms differ in nothing but the names of their shape facts, so they
  are equal without the scatter ever being looked into.
-/
import proofs.«101648_j16415365006069_2_alg».proof.Proof.Staged
import proofs.«101648_j16415365006069_2_alg».proof.Proof.Gen.ReferenceIdeal.Read

noncomputable section

namespace Cert.Proof

open Idealize.ShloMosaic

/-- The host's scatter dimensions are the same record in both programs. -/
theorem scatter_dims_same :
    Cert.KernelIdeal.scatter_S50000x128_S1600000x1_S1600000x128_1_0_0_1
      = Cert.ReferenceIdeal.scatter_S50000x128_S1600000x1_S1600000x128_1_0_0_1 := rfl

/-- The kernel's aggregated edge features are the reference's. -/
theorem agg_same (e : (⟨Cert.KernelIdeal.S2x1600000, .i32⟩ : BufTy).Contents (Elt Ideal))
    (u : (⟨Cert.KernelIdeal.S1600000x128, .f32⟩ : BufTy).Contents (Elt Ideal)) :
    Cert.KernelIdeal.Staged.aggOf e u = Cert.ReferenceIdeal.Read.val_main_v4 (F := Ideal) e u := by
  unfold Cert.KernelIdeal.Staged.aggOf Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst
  rw [scatter_dims_same]

end Cert.Proof

end
-- ==== Proof.lean ====
/-
  A fused node update of a graph network: kernel against reference on the extended reals.

  Both programs first aggregate the edge features at their destination nodes on the host, by the same scatter-add. The
  kernel then walks the 50000 nodes in ten blocks of 5000 rows; for each block it multiplies the node rows by the upper
  half and the aggregated rows by the lower half of the first weight matrix, adds the two products and the bias,
  applies `h · logistic h`, multiplies by the second matrix, adds its bias, normalizes every row (mean, mean squared
  deviation plus a small offset, reciprocal square root, an affine map per column) and adds the node's own row. The
  reference joins node and aggregated rows into rows of width 256 and multiplies them by the whole first matrix; the
  rest is the same chain on whole arrays, with the logistic function spelt `1 / (1 + exp (-h))`.

  On the extended reals the two results are the same array, entry by entry (`Cert.NodeUpdate.nodeArr`): a sum over 256
  positions is the sum over its first 128 plus the sum over its last 128, in any commutative additive monoid; the
  spelt-out logistic is the logistic function's definition; a change of float format is the identity; a row sum from
  the zero word is the plain sum. None of this needs the inputs to be finite, so the precondition is not used.

  The modules: NodeUpdate (the update as mathematics), KernelRow (the kernel body at an entry of a block), Staged
  (what the host leaves in the region's arrays), KernelArray (from the ten blocks to the result array), RefValue (the
  reference at an entry), AggSame (the two aggregations are one term), and the three general lemma files LibPlainMatmul,
  LibKeepdims, LibBlockLayout.
-/
import proofs.«101648_j16415365006069_2_alg».proof.Defs
import proofs.«101648_j16415365006069_2_alg».proof.Proof.Gen.Kernel
import proofs.«101648_j16415365006069_2_alg».proof.Proof.Gen.Kernel.Frame
import proofs.«101648_j16415365006069_2_alg».proof.Proof.Gen.KernelIdeal
import proofs.«101648_j16415365006069_2_alg».proof.Proof.Gen.KernelIdeal.Frame
import proofs.«101648_j16415365006069_2_alg».proof.Proof.Gen.KernelIdeal.Value
import proofs.«101648_j16415365006069_2_alg».proof.Proof.Gen.ReferenceIdeal
import proofs.«101648_j16415365006069_2_alg».proof.Proof.Gen.ReferenceIdeal.Run
import proofs.«101648_j16415365006069_2_alg».proof.Proof.Gen.ReferenceIdeal.Read
import proofs.«101648_j16415365006069_2_alg».proof.Proof.Gen.Pre_finite_inputs
import proofs.«101648_j16415365006069_2_alg».proof.Proof.KernelArray
import proofs.«101648_j16415365006069_2_alg».proof.Proof.RefValue
import proofs.«101648_j16415365006069_2_alg».proof.Proof.AggSame
import Idealize.ShloMosaic.Adequacy
import Idealize.ShloMosaic.Init

noncomputable section

namespace Cert.Proof

open Idealize.ShloMosaic Idealize.SL.Sem

/-- The kernel as printed runs to its end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on the arguments both programs end with the update of all nodes in their result. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v39_eq, Cert.ReferenceIdeal.RefValue.result_eq, a0, a1, a2, a3, a4, a5, a6,
    a7, a8, ← agg_same]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
